-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000x256 : Shape := ⟨2, ![50000, 256]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S50000x256 : S_.BroadcastsInDim S50000x256 (![] : Fin 0 → Fin S50000x256.rank)
  reducesTo_S50000x256_S_d0_1 : S50000x256.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S256 .f32) (main_arg5 : FVec F S256 .f32) (main_arg6 : FVec F S256x128 .f32) (main_arg7 : FVec F S128 .f32) (main_arg8 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S800000 .f32) (main_arg2 : FVec F S50000x256 .f32) (main_arg3 : FVec F S128x256 .f32) (main_arg4 : FVec F S256 .f32) (main_arg5 : FVec F S256 .f32) (main_arg6 : FVec F S256x128 .f32) (main_arg7 : FVec F S128 .f32) (main_arg8 : FVec F S128 .f32) (main_arg9 : IVec S800000 32) (main_arg10 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x256 .f32 := Host.absf main_arg2
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S800000 : Shape := ⟨1, ![800000]⟩
abbrev S50000x256 : Shape := ⟨2, ![50000, 256]⟩
abbrev S128x256 : Shape := ⟨2, ![128, 256]⟩
abbrev S256 : Shape := ⟨1, ![256]⟩
abbrev S256x128 : Shape := ⟨2, ![256, 128]⟩
abbrev S128 : Shape := ⟨1, ![128]⟩
abbrev S800000x1 : Shape := ⟨2, ![800000, 1]⟩
abbrev S_ : Shape := ⟨0, ![]⟩
abbrev S800000x128 : Shape := ⟨2, ![800000, 128]⟩
abbrev S1x256 : Shape := ⟨2, ![1, 256]⟩
abbrev S2000x128 : Shape := ⟨2, ![2000, 128]⟩
abbrev S2000x256 : Shape := ⟨2, ![2000, 256]⟩
abbrev S1x128 : Shape := ⟨2, ![1, 128]⟩

abbrev nBuf : Space → Nat
  | .hbm => 49
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S50000x256, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S800000, .i32⟩
  | .hbm, ⟨10, _⟩ => ⟨S800000, .i32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S1x256, .f32⟩
  | .hbm, ⟨28, _⟩ => ⟨S1x256, .f32⟩
  | .hbm, ⟨29, _⟩ => ⟨S50000x128, .f32⟩
  | .hbm, ⟨30, _⟩ => ⟨S800000x1, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S1x128, .f32⟩
  | .hbm, ⟨47, _⟩ => ⟨S1x128, .f32⟩
  | .hbm, ⟨48, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S1x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S128x256, .f32⟩
  | .local _ .vmem, ⟨7, _⟩ => ⟨S256x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  inb_S256x128_S256x128_0_0 : ∀ a, (![0, 0] : Fin 2 → Nat) a + S256x128.size a ≤ S256x128.size a
  h_S256x128 : 0 < S256x128.numel
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v12) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S50000x256 : Shape := ⟨2, ![50000, 256]⟩
abbrev S128x256 : Shape := ⟨2, ![128, 256]⟩
abbrev S256 : Shape := ⟨1, ![256]⟩
abbrev S256x128 : Shape := ⟨2, ![256, 128]⟩
abbrev S128 : Shape := ⟨1, ![128]⟩
abbrev S800000x1 : Shape := ⟨2, ![800000, 1]⟩
abbrev S_ : Shape := ⟨0, ![]⟩
abbrev S800000x256 : Shape := ⟨2, ![800000, 256]⟩
abbrev S1x256 : Shape := ⟨2, ![1, 256]⟩
abbrev S800000x128 : Shape := ⟨2, ![800000, 128]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S50000x256, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S800000, .i32⟩
  | .hbm, ⟨10, _⟩ => ⟨S800000, .i32⟩
  | .hbm, ⟨11, _⟩ => ⟨S50000x256, .f32⟩
  | .hbm, ⟨12, _⟩ => ⟨S800000x1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S800000x256, .f32⟩
  | .hbm, ⟨23, _⟩ => ⟨S800000x256, .f32⟩
  | .hbm, ⟨24, _⟩ => ⟨S_, .f32⟩
  | .hbm, ⟨25, _⟩ => ⟨S50000x256, .f32⟩
  | .hbm, ⟨26, _⟩ => ⟨S800000x1, .i32⟩
  | .hbm, ⟨27, _⟩ => ⟨S50000x256, .f32⟩
  | .hbm, ⟨28, _⟩ => ⟨S1x256, .f32⟩
  | .hbm, ⟨29, _⟩ => ⟨S50000x256, .f32⟩
  | .hbm, ⟨30, _⟩ => ⟨S50000x256, .f32⟩
  | .hbm, ⟨31, _⟩ => ⟨S_, .f32⟩
  | .hbm, ⟨32, _⟩ => ⟨S50000x256, .f32⟩
  | .hbm, ⟨33, _⟩ => ⟨S50000x256, .i1⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S_, .f32⟩
  | .hbm, ⟨39, _⟩ => ⟨S50000x256, .f32⟩
  | .hbm, ⟨40, _⟩ => ⟨S50000x256, .i1⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x128, .f32⟩
  | .hbm, ⟨47, _⟩ => ⟨S800000x1, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .i1⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run with its result named.

  @main is two stretches of host operations, each followed by a grid of 25 row bands (2000 rows each). The buffer
  contents at the four boundaries are a fold through the program: after the first stretch, after the first grid
  (its output array at what the 25 write-backs leave), after the second stretch, after the second grid. Every weakly
  fair execution terminates, nothing faults, the eleven argument arrays end as launched, and the result buffer ends
  at that fold's last stage read at the result's reference.
-/
import proofs.«129848_j3762391351712_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents (the second grid's output array after its write-backs) and every argument array as launched. -/
theorem run : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.ValueRun

end
-- ==== Proof.HostChain.lean ====
/-
  The kernel program's two stretches of host operations, read as terms of the argument arrays.

  Each stretch is the same chain: the edge weights laid out as a column and broadcast along the columns, the source
  indices wrapped and laid out as a column, the gather of the table's rows, the product, and the scatter-add into zeros
  at the target rows (`agg`); then two vectors recast as one-row matrices. The first stretch aggregates the features and
  recasts the first layer's bias and slopes; the second aggregates the first grid's output and recasts the second layer's.
  No operation writes an argument array.
-/
import proofs.«129848_j3762391351712_2_alg».proof.Proof.Gen.KernelIdeal.Frame
import Idealize.ShloMosaic.Lib.StableHlo.Run
import Idealize.ShloMosaic.PureOps.Ideal

set_option maxRecDepth 16384

noncomputable section

namespace Cert.KernelIdeal.HostChain

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.StableHlo

variable (m : (ℓ : Loc nD τ sig) → Buf (Elt Ideal) ℓ) (ρ : Dev nD → PrngReg)

/-- The aggregation stretch as ONE function of the edge arrays and the table of rows. -/
def agg (vals : FVec Ideal S800000 .f32) (row col : IVec S800000 32) (T : FVec Ideal S50000x128 .f32) : FVec Ideal S50000x128 .f32 :=
  Host.scatterAdd (F := Ideal) scatter_S50000x128_S800000x1_S800000x128_1_0_0_1
    (broadcastInDim S50000x128 ![] Facts₀.bcast_S_S50000x128 (constant (F := Ideal) S_ .f32 0x00000000#32))
    (broadcastInDim S800000x1 ![0] Facts₀.bcast_S800000_S800000x1_0 row)
    (mulf (broadcastInDim S800000x128 ![0, 1] Facts₀.bcast_S800000x1_S800000x128_0_1 (broadcastInDim S800000x1 ![0] Facts₀.bcast_S800000_S800000x1_0 vals))
      (Host.gather gather_S50000x128_S800000x1_S800000x128_1_0_n_n_0_1_1128 T
        (broadcastInDim S800000x1 ![0] Facts₀.bcast_S800000_S800000x1_0
          (select (cmpi .slt col (broadcastInDim S800000 ![] Facts₀.bcast_S_S800000 (constantI S_ 32 0#32)))
            (addi col (broadcastInDim S800000 ![] Facts₀.bcast_S_S800000 (constantI S_ 32 50000#32))) col))))

/-! ## The first stretch: what the first grid is entered with -/

set_option maxHeartbeats 4000000 in
/-- The aggregated features. -/
theorem entry0_v12 (c : Dev nD) :
    V1 m ρ c main_v12 = agg (m ((c : Thread nD τ).loc main_arg1)) (m ((c : Thread nD τ).loc main_arg9)) (m ((c : Thread nD τ).loc main_arg10)) (m ((c : Thread nD τ).loc main_arg0)) := by
  show StableHlo.after hostOps0 (W0 m ρ c) (Proc.devRef .tc main_v12) = _
  dsimp only [hostOps0]
  after_results
  rfl

/-- The first layer's bias as a one-row matrix. -/
theorem entry0_v13 (c : Dev nD) : V1 m ρ c main_v13 = shapeCast S1x256 (m ((c : Thread nD τ).loc main_arg4)) Facts₀.shapeCasts_S256_S1x256 := by
  show StableHlo.after hostOps0 (W0 m ρ c) (Proc.devRef .tc main_v13) = _
  dsimp only [hostOps0]
  after_results
  rfl

/-- The first layer's slopes as a one-row matrix. -/
theorem entry0_v14 (c : Dev nD) : V1 m ρ c main_v14 = shapeCast S1x256 (m ((c : Thread nD τ).loc main_arg5)) Facts₀.shapeCasts_S256_S1x256 := by
  show StableHlo.after hostOps0 (W0 m ρ c) (Proc.devRef .tc main_v14) = _
  dsimp only [hostOps0]
  after_results
  rfl

/-- The uniform draws, the first and the second weights: as launched. -/
theorem entry0_arg2 (c : Dev nD) : V1 m ρ c main_arg2 = (m ((c : Thread nD τ).loc main_arg2)) := by
  show StableHlo.after hostOps0 (W0 m ρ c) (Proc.devRef .tc main_arg2) = _
  dsimp only [hostOps0]
  after_results
theorem entry0_arg3 (c : Dev nD) : V1 m ρ c main_arg3 = (m ((c : Thread nD τ).loc main_arg3)) := by
  show StableHlo.after hostOps0 (W0 m ρ c) (Proc.devRef .tc main_arg3) = _
  dsimp only [hostOps0]
  after_results
theorem entry0_arg6 (c : Dev nD) : V1 m ρ c main_arg6 = (m ((c : Thread nD τ).loc main_arg6)) := by
  show StableHlo.after hostOps0 (W0 m ρ c) (Proc.devRef .tc main_arg6) = _
  dsimp only [hostOps0]
  after_results

/-! ## After the first grid: the arguments the second stretch reads are as launched -/

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    dsimp only [hostOps0]
    after_results)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    dsimp only [hostOps0]
    after_results)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    dsimp only [hostOps0]
    after_results)
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    dsimp only [hostOps0]
    after_results)
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    dsimp only [hostOps0]
    after_results)

/-! ## The second stretch: what the second grid is entered with -/

/-- After the first grid its output buffer holds what the 25 write-backs leave. -/
theorem W2_v15 (c : Dev nD) : W2 m ρ c (Proc.devRef .tc main_v15) = (dat0 (V1 m ρ) c).arrAt 6 cfg0.N := by
  have h := W2_arr m ρ c 6
  exact h

/-- After the second grid the result buffer holds what its 25 write-backs leave. -/
theorem W4_v31 (c : Dev nD) : W4 m ρ c (Proc.devRef .tc main_v31) = (dat1 (V3 m ρ) c).arrAt 3 cfg1.N := by
  have h := W4_arr m ρ c 3
  exact h

set_option maxHeartbeats 4000000 in
/-- The second stretch from any contents `U`: the aggregation of what the first grid's output buffer holds. -/
theorem stretch1_v28 (U : Valuation τ sig (Elt Ideal)) :
    StableHlo.after hostOps1 U (Proc.devRef .tc main_v28)
      = agg (U (Proc.devRef .tc main_arg1)) (U (Proc.devRef .tc main_arg9)) (U (Proc.devRef .tc main_arg10))
          (U (Proc.devRef .tc main_v15)) := by
  dsimp only [hostOps1]
  after_results
  rfl

/-- The aggregated output of the first grid. -/
theorem entry1_v28 (c : Dev nD) :
    V3 m ρ c main_v28 = agg (m ((c : Thread nD τ).loc main_arg1)) (m ((c : Thread nD τ).loc main_arg9)) (m ((c : Thread nD τ).loc main_arg10)) ((dat0 (V1 m ρ) c).arrAt 6 cfg0.N) := by
  refine (stretch1_v28 (W2 m ρ c)).trans ?_
  rw [W2_arg1, W2_arg9, W2_arg10, W2_v15]

/-- The second layer's bias as a one-row matrix. -/
theorem entry1_v29 (c : Dev nD) : V3 m ρ c main_v29 = shapeCast S1x128 (m ((c : Thread nD τ).loc main_arg7)) Facts₀.shapeCasts_S128_S1x128 := by
  show StableHlo.after hostOps1 (W2 m ρ c) (Proc.devRef .tc main_v29) = _
  dsimp only [hostOps1]
  after_results
  rw [W2_arg7]
  rfl

/-- The second layer's slopes as a one-row matrix. -/
theorem entry1_v30 (c : Dev nD) : V3 m ρ c main_v30 = shapeCast S1x128 (m ((c : Thread nD τ).loc main_arg8)) Facts₀.shapeCasts_S128_S1x128 := by
  show StableHlo.after hostOps1 (W2 m ρ c) (Proc.devRef .tc main_v30) = _
  dsimp only [hostOps1]
  after_results
  rw [W2_arg8]
  rfl

end Cert.KernelIdeal.HostChain

end
-- ==== Proof.Spec.lean ====
/-
  The scalar functions both programs apply entry by entry, on the extended reals, and the float constants they spell.

  PReLU with slope `a` at `p`: `p` where `p ≥ 0`, else `a · p`. The dropout factor at a uniform draw `u`: the kernel
  selects `2` where `u > 1/2` and `0` elsewhere; the reference converts the comparison's bit to a float and divides it by
  `1/2`. The two factors are one function: `1 / (1/2) = 2` and `0 / (1/2) = 0`.
-/
import Idealize.ShloMosaic.PureOps.Ideal
import Idealize.ShloMosaic.Lib.ValueIdx

noncomputable section

namespace Cert.Gcn

open Idealize.ShloMosaic Idealize.ShloMosaic.ValueIdx

/-- The word `+0.0` denotes `0`. -/
theorem ofBits_zero : Ideal.ofBits .f32 0x00000000#32 = 0 := by
  simp [Ideal.ofBits, Ideal.ieee]

/-- The word of `0.5` denotes the real `1/2`. -/
theorem ofBits_half : Ideal.ofBits .f32 0x3F000000#32 = ((1 / 2 : ℝ) : EReal) := by
  simp [Ideal.ofBits, Ideal.ieee, -EReal.coe_mul]; norm_num

/-- The word of `2.0` denotes the real `2`. -/
theorem ofBits_two : Ideal.ofBits .f32 0x40000000#32 = ((2 : ℝ) : EReal) := by
  simp [Ideal.ofBits, Ideal.ieee, -EReal.coe_mul]; norm_num

/-- PReLU with slope `a` at `p`: `p` where `p ≥ 0` (an ordered comparison against `+0.0`), else `a · p`. -/
def prelu (a p : Ideal .f32) : Ideal .f32 :=
  Scalar.select (FloatOps.cmpf (F := Ideal) (φ := .f32) .oge p (Ideal.ofBits .f32 0x00000000#32)) p (a * p)

/-- The dropout factor as the kernel spells it: `2` where the draw exceeds `1/2`, else `0`. -/
def keepSel (u : Ideal .f32) : Ideal .f32 :=
  Scalar.select (FloatOps.cmpf (F := Ideal) (φ := .f32) .ogt u (Ideal.ofBits .f32 0x3F000000#32))
    (Ideal.ofBits .f32 0x40000000#32) (Ideal.ofBits .f32 0x00000000#32)

/-- The dropout factor as the reference spells it: the comparison's bit as a float, divided by `1/2`. -/
def keepDiv (u : Ideal .f32) : Ideal .f32 :=
  Ideal.div (FloatOps.uitofp (F := Ideal) .f32 (FloatOps.cmpf (F := Ideal) (φ := .f32) .ogt u (Ideal.ofBits .f32 0x3F000000#32)))
    (Ideal.ofBits .f32 0x3F000000#32)

/-- The two spellings of the dropout factor agree: `1 / (1/2) = 2`, `0 / (1/2) = 0`. -/
theorem keepDiv_eq_keepSel (u : Ideal .f32) : keepDiv u = keepSel u := by
  unfold keepDiv keepSel
  rw [ofBits_half, ofBits_two, ofBits_zero, Ideal.div_coe (by norm_num : (1 / 2 : ℝ) ≠ 0)]
  rcases BitVec.eq_zero_or_eq_one (FloatOps.cmpf (F := Ideal) (φ := .f32) .ogt u ((1 / 2 : ℝ) : EReal)) with h | h
  · rw [h, select_zero]
    show (((0#1 : BitVec 1).toNat : ℝ) : EReal) * _ = 0
    simp
  · rw [h, select_one]
    show (((1#1 : BitVec 1).toNat : ℝ) : EReal) * _ = _
    rw [← EReal.coe_mul]
    norm_num

end Cert.Gcn

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.Fused.lean ====
/-
  The first grid, whole: over 25 bands of 2000 rows, the aggregated features times the first weights plus the bias,
  PReLU, the dropout factor, times the second weights.

  At grid point `t` the body reads rows `2000·t …` of the aggregated features `AX` ([50000, 128]) and of the uniform
  draws `M` ([50000, 256]), and the whole of the bias row `B1`, the slope row `A1` ([1, 256]) and the weights `W1`
  ([128, 256]), `W2` ([256, 128]). Entry (r, q) it writes back is
      ∑ k, prelu (A1 k) ((∑ f, AX(r,f) · W1(f,k)) + B1 k) · keep (M(r,k)) · W2(k,q)
  (the two products by the matrix unit into a zero accumulator are these sums; the roundings on the way in are the
  identity on extended reals). The 25 bands tile the output. Stated for any contents `V` of the buffers at entry.
-/
import proofs.«129848_j3762391351712_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«129848_j3762391351712_2_alg».proof.Proof.Spec
import proofs.«129848_j3762391351712_2_alg».proof.Proof.LibDenseLayer

noncomputable section

namespace Cert.KernelIdeal.Fused

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The two matrix products at an entry -/

theorem d1_l0 (i : S2000x256.Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem d1_l1 (i : S2000x256.Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem d1_r0 (i : S2000x256.Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem d1_r1 (i : S2000x256.Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

theorem d2_l0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem d2_l1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem d2_r0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem d2_r1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The first product at (p, k): row `p` of the left operand against column `k` of the right one. -/
theorem mm1 (L : FVec Ideal S2000x128 .bf16) (R : FVec Ideal S128x256 .bf16) (p : Fin 2000) (k : Fin 256) :
    matmul dot_S2000x128_S128x256_S2000x256_1_0_0_1_n_n none L R (constant S2000x256 .f32 0x00000000#32) (ix2 p k) = ∑ f : Fin 128, L (ix2 p f) * R (ix2 f k) :=
  Cert.DenseLayer.matmul_rows_cols dot_S2000x128_S128x256_S2000x256_1_0_0_1_n_n rfl rfl d1_l0 d1_l1 d1_r0 d1_r1 none L R p k

/-- The second product at (p, q). -/
theorem mm2 (L : FVec Ideal S2000x256 .bf16) (R : FVec Ideal S256x128 .bf16) (p : Fin 2000) (q : Fin 128) :
    matmul dot_S2000x256_S256x128_S2000x128_1_0_0_1_n_n none L R (constant S2000x128 .f32 0x00000000#32) (ix2 p q) = ∑ k : Fin 256, L (ix2 p k) * R (ix2 k q) :=
  Cert.DenseLayer.matmul_rows_cols dot_S2000x256_S256x128_S2000x128_1_0_0_1_n_n rfl rfl d2_l0 d2_l1 d2_r0 d2_r1 none L R p q

/-! ## The whole-array function -/

/-- The hidden activation at row `r`, hidden column `k`, after the dropout factor. -/
def hidden (AX : S50000x128.Idx → Elt Ideal .f32) (B1 A1 : S1x256.Idx → Elt Ideal .f32) (M : S50000x256.Idx → Elt Ideal .f32)
    (W1 : S128x256.Idx → Elt Ideal .f32) (r : Fin 50000) (k : Fin 256) : Ideal .f32 :=
  Cert.Gcn.prelu (A1 (ix2 (0 : Fin 1) k)) ((∑ f : Fin 128, AX (ix2 r f) * W1 (ix2 f k)) + B1 (ix2 (0 : Fin 1) k))
    * Cert.Gcn.keepSel (M (ix2 r k))

/-- Entry `i` of the grid's output: the hidden row against a column of the second weights. -/
def fused (AX : S50000x128.Idx → Elt Ideal .f32) (B1 A1 : S1x256.Idx → Elt Ideal .f32) (M : S50000x256.Idx → Elt Ideal .f32)
    (W1 : S128x256.Idx → Elt Ideal .f32) (W2 : S256x128.Idx → Elt Ideal .f32) : S50000x128.Idx → Elt Ideal .f32 :=
  fun i => ∑ k : Fin 256, hidden AX B1 A1 M W1 (⟨(i 0).val, idx2_lt0 i⟩ : Fin 50000) k
    * W2 (ix2 k (⟨(i 1).val, idx2_lt1 i⟩ : Fin 128))

/-- The body's stored value at row `p`, column `q` of a band, from the six loaded blocks. -/
theorem pay_apply (v0 : Vec Ideal S2000x128 .f32) (v3 : Vec Ideal S128x256 .f32) (v6 v10 : Vec Ideal S1x256 .f32)
    (v17 : Vec Ideal S2000x256 .f32) (v24 : Vec Ideal S256x128 .f32) (p : Fin 2000) (q : Fin 128) :
    k0_pay1 v0 v3 v6 v10 v17 v24 (ix2 p q)
      = ∑ k : Fin 256, (Cert.Gcn.prelu (v10 (ix2 (0 : Fin 1) k)) ((∑ f : Fin 128, v0 (ix2 p f) * v3 (ix2 f k)) + v6 (ix2 (0 : Fin 1) k))
          * Cert.Gcn.keepSel (v17 (ix2 p k))) * v24 (ix2 k q) := by
  unfold k0_pay1
  simp only [shapeCast_self]
  refine (mm2 _ _ p q).trans ?_
  refine Finset.sum_congr rfl fun k _ => ?_
  simp only [truncf_apply, mulf_apply, select_apply, cmpf_apply, addf_apply, broadcast_apply, broadcastTo_1b_ab_apply, mm1]
  rfl

/-! ## From bands to the array -/

/-- The index maps over the grid: the band windows sit at block row `t`, the whole-array windows at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is band `t` of `fused` of the arrays as the grid finds them. -/
theorem flushed_eq (c : Dev nD) (t : Fin cfg0.N) :
    (dat0 V c).flushed 6 t = ((cfg0.win 6).blk t).view.read (Elt Ideal)
      (fused (V c main_v12) (V c main_v13) (V c main_v14) (V c main_arg2) (V c main_arg3) (V c main_arg6)) := by
  show (cfg0.win 6).cut (grid0.coords t) ((dat0 V c).after 6 t) = _
  rw [after0_6]
  unfold out0_6
  rw [View.canon_unit_zero hz]
  simp only [View.ld_unit_zero (S := S2000x128) hz, View.ld_unit_zero (S := S1x256) hz, View.ld_unit_zero (S := S2000x256) hz,
    View.ld_unit_zero (S := S128x256) hz, View.ld_unit_zero (S := S256x128) hz]
  obtain ⟨e00, e01, e10, e11, e20, e21, e30, e31, e40, e41, e50, e51, e60, e61⟩ := idx_facts t
  funext j
  obtain ⟨p, q, rfl⟩ : ∃ (p : Fin 2000) (q : Fin 128), j = ix2 p q := ⟨j 0, j 1, eq_ix2 j⟩
  show k0_pay1 (iblk0 V c 0 t) (iblk0 V c 4 t) (iblk0 V c 1 t) (iblk0 V c 2 t) (iblk0 V c 3 t) (iblk0 V c 5 t) (ix2 p q)
    = fused (V c main_v12) (V c main_v13) (V c main_v14) (V c main_arg2) (V c main_arg3) (V c main_arg6)
        (((cfg0.win 6).blk t).view.emb (ix2 p q))
  refine (pay_apply (iblk0 V c 0 t) (iblk0 V c 4 t) (iblk0 V c 1 t) (iblk0 V c 2 t) (iblk0 V c 3 t) (iblk0 V c 5 t) p q).trans ?_
  unfold fused hidden
  have r0 : ∀ f : Fin 128, iblk0 V c 0 t (ix2 p f) = V c main_v12 (ix2
      (⟨(((cfg0.win 6).blk t).view.emb (ix2 p q) 0).val, idx2_lt0 _⟩ : Fin 50000) f) := fun f => by
    show V c main_v12 (((cfg0.win 0).blk t).view.emb (ix2 p f)) = _
    refine congrArg _ (funext fun a => Fin.ext ?_)
    match a with
    | ⟨0, _⟩ => show win0_0.index t (0 : Fin 2) * 2000 + 1 * p.val = win0_6.index t (0 : Fin 2) * 2000 + 1 * p.val; omega
    | ⟨1, _⟩ => show win0_0.index t (1 : Fin 2) * 128 + 1 * f.val = f.val; omega
  have r1 : ∀ k : Fin 256, iblk0 V c 1 t (ix2 (0 : Fin 1) k) = V c main_v13 (ix2 (0 : Fin 1) k) := fun k => by
    show V c main_v13 (((cfg0.win 1).blk t).view.emb (ix2 (0 : Fin 1) k)) = _
    refine congrArg _ (funext fun a => Fin.ext ?_)
    match a with
    | ⟨0, _⟩ => show win0_1.index t (0 : Fin 2) * 1 + 1 * 0 = 0; omega
    | ⟨1, _⟩ => show win0_1.index t (1 : Fin 2) * 256 + 1 * k.val = k.val; omega
  have r2 : ∀ k : Fin 256, iblk0 V c 2 t (ix2 (0 : Fin 1) k) = V c main_v14 (ix2 (0 : Fin 1) k) := fun k => by
    show V c main_v14 (((cfg0.win 2).blk t).view.emb (ix2 (0 : Fin 1) k)) = _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * k.val = k.val; omega
  have r3 : ∀ k : Fin 256, iblk0 V c 3 t (ix2 p k) = V c main_arg2 (ix2
      (⟨(((cfg0.win 6).blk t).view.emb (ix2 p q) 0).val, idx2_lt0 _⟩ : Fin 50000) k) := fun k => by
    show V c main_arg2 (((cfg0.win 3).blk t).view.emb (ix2 p k)) = _
    refine congrArg _ (funext fun a => Fin.ext ?_)
    match a with
    | ⟨0, _⟩ => show win0_3.index t (0 : Fin 2) * 2000 + 1 * p.val = win0_6.index t (0 : Fin 2) * 2000 + 1 * p.val; omega
    | ⟨1, _⟩ => show win0_3.index t (1 : Fin 2) * 256 + 1 * k.val = k.val; omega
  have r4 : ∀ (f : Fin 128) (k : Fin 256), iblk0 V c 4 t (ix2 f k) = V c main_arg3 (ix2 f k) := fun f k => by
    show V c main_arg3 (((cfg0.win 4).blk t).view.emb (ix2 f k)) = _
    refine congrArg _ (funext fun a => Fin.ext ?_)
    match a with
    | ⟨0, _⟩ => show win0_4.index t (0 : Fin 2) * 128 + 1 * f.val = f.val; omega
    | ⟨1, _⟩ => show win0_4.index t (1 : Fin 2) * 256 + 1 * k.val = k.val; omega
  have r5 : ∀ k : Fin 256, iblk0 V c 5 t (ix2 k q) = V c main_arg6 (ix2 k
      (⟨(((cfg0.win 6).blk t).view.emb (ix2 p q) 1).val, idx2_lt1 _⟩ : Fin 128)) := fun k => by
    show V c main_arg6 (((cfg0.win 5).blk t).view.emb (ix2 k q)) = _
    refine congrArg _ (funext fun a => Fin.ext ?_)
    match a with
    | ⟨0, _⟩ => show win0_5.index t (0 : Fin 2) * 256 + 1 * k.val = k.val; omega
    | ⟨1, _⟩ => show win0_5.index t (1 : Fin 2) * 128 + 1 * q.val = win0_6.index t (1 : Fin 2) * 128 + 1 * q.val; omega
  simp only [r0, r1, r2, r3, r4, r5]

/-- An index of the array is in point `t`'s band iff each coordinate is in the band's range on its axis. -/
theorem mem_blk (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v15).slice (win0_6.rect t)).set ↔ _
  rw [View.set_slice_whole, Rect.mem_set_unit]
  exact Iff.rfl

/-- Row `r` lies in band `r / 2000`: the bands tile the output. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, -, -, -, -, -, -, -, -, e60, e61⟩ := idx_facts ⟨(i 0).val / 2000, hlt⟩
  refine ⟨⟨(i 0).val / 2000, hlt⟩, flush0_6 _, ?_⟩
  rw [mem_blk]
  intro a
  match a with
  | ⟨0, _⟩ =>
    show win0_6.index ⟨(i 0).val / 2000, hlt⟩ (0 : Fin 2) * 2000 ≤ (i 0).val
      ∧ (i 0).val < win0_6.index ⟨(i 0).val / 2000, hlt⟩ (0 : Fin 2) * 2000 + 2000
    rw [e60]; show (i 0).val / 2000 * 2000 ≤ (i 0).val ∧ (i 0).val < (i 0).val / 2000 * 2000 + 2000; omega
  | ⟨1, _⟩ =>
    show win0_6.index ⟨(i 0).val / 2000, hlt⟩ (1 : Fin 2) * 128 ≤ (i 1).val
      ∧ (i 1).val < win0_6.index ⟨(i 0).val / 2000, hlt⟩ (1 : Fin 2) * 128 + 128
    rw [e61]; omega

/-- After the grid the output array is `fused` of the arrays the grid was entered with. -/
theorem final (c : Dev nD) :
    (dat0 V c).arrAt 6 cfg0.N
      = fused (V c main_v12) (V c main_v13) (V c main_v14) (V c main_arg2) (V c main_arg3) (V c main_arg6) :=
  (dat0 V c).arrAt_eq_of_cover 6 _ (fun t _ => flushed_eq V c t) cover

end Cert.KernelIdeal.Fused

end
-- ==== Proof.BiasPrelu.lean ====
/-
  The second grid, whole: bias and PReLU over 25 bands of 2000 rows.

  At grid point `t` the body reads rows `2000·t … 2000·t + 1999` of the aggregated array `A` ([50000, 128]) and the one
  row each of the bias `B` and the slopes `Al` ([1, 128]), and writes back, at row `r` and column `q` of the band,
  `prelu (Al(0,q)) (A(r,q) + B(0,q))`. The 25 bands tile the output, so after the grid the output array is that function of
  `A`, `B`, `Al` at every index. Stated for any contents `V` of the buffers when the grid is entered.
-/
import proofs.«129848_j3762391351712_2_alg».proof.Proof.Gen.KernelIdeal.Frame
import Idealize.ShloMosaic.Lib.Pipeline.Value
import Idealize.ShloMosaic.Lib.ValueIdx
import Idealize.ShloMosaic.Lib.ValueLayout
import proofs.«129848_j3762391351712_2_alg».proof.Proof.Spec

noncomputable section

namespace Cert.KernelIdeal.BiasPrelu

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry `i` of the output: PReLU, with the column's slope, of the aggregated entry plus the column's bias. -/
def band (A : S50000x128.Idx → Elt Ideal .f32) (B Al : S1x128.Idx → Elt Ideal .f32) : S50000x128.Idx → Elt Ideal .f32 :=
  fun i => Cert.Gcn.prelu (Al (ix2 (0 : Fin 1) (⟨(i 1).val, idx2_lt1 i⟩ : Fin 128)))
    (A i + B (ix2 (0 : Fin 1) (⟨(i 1).val, idx2_lt1 i⟩ : Fin 128)))

/-- The body's stored value at row `p`, column `q` of a band, from the three loaded blocks. -/
theorem pay_apply (x0 : Vec Ideal S2000x128 .f32) (x1 x2 : Vec Ideal S1x128 .f32) (p : Fin 2000) (q : Fin 128) :
    k1_pay1 x0 x1 x2 (ix2 p q) = Cert.Gcn.prelu (x2 (ix2 (0 : Fin 1) q)) (x0 (ix2 p q) + x1 (ix2 (0 : Fin 1) q)) := by
  unfold k1_pay1
  simp only [shapeCast_self]
  rw [select_apply, cmpf_apply, mulf_apply, addf_apply, broadcast_apply, broadcastTo_1b_ab_apply, broadcastTo_1b_ab_apply]
  rfl

/-- The index maps over the grid: the band windows sit at block row `t`, the one-row windows at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is band `t` of `band` of the arrays as the grid finds them. -/
theorem flushed_eq (c : Dev nD) (t : Fin cfg1.N) :
    (dat1 V c).flushed 3 t = ((cfg1.win 3).blk t).view.read (Elt Ideal) (band (V c main_v28) (V c main_v29) (V c main_v30)) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz]
  obtain ⟨e0, e1, e2, e3, e4, e5, e6, e7⟩ := idx_facts t
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (ix2 p q)
    = band (V c main_v28) (V c main_v29) (V c main_v30) (((cfg1.win 3).blk t).view.emb (ix2 p q))
  refine (pay_apply (iblk1 V c 0 t) (iblk1 V c 1 t) (iblk1 V c 2 t) p q).trans ?_
  unfold band
  have r0 : iblk1 V c 0 t (ix2 p q) = V c main_v28 (((cfg1.win 3).blk t).view.emb (ix2 p q)) := by
    show V c main_v28 (((cfg1.win 0).blk t).view.emb (ix2 p q)) = _
    refine congrArg _ (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * q.val = win1_3.index t (1 : Fin 2) * 128 + 1 * q.val; omega
  have r1 : iblk1 V c 1 t (ix2 (0 : Fin 1) q) = V c main_v29 (ix2 (0 : Fin 1)
      (⟨(((cfg1.win 3).blk t).view.emb (ix2 p q) 1).val, idx2_lt1 _⟩ : Fin 128)) := by
    show V c main_v29 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  have r2 : iblk1 V c 2 t (ix2 (0 : Fin 1) q) = V c main_v30 (ix2 (0 : Fin 1)
      (⟨(((cfg1.win 3).blk t).view.emb (ix2 p q) 1).val, idx2_lt1 _⟩ : Fin 128)) := by
    show V c main_v30 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [r0, r1, r2]

/-- An index of the array is in point `t`'s band iff each coordinate is in the band's range on its axis. -/
theorem mem_blk (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v31).slice (win1_3.rect t)).set ↔ _
  rw [View.set_slice_whole, Rect.mem_set_unit]
  exact Iff.rfl

/-- Row `r` lies in band `r / 2000`: the bands tile the output. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  have hlt : (i 0).val / 2000 < cfg1.N := by rw [hN]; omega
  obtain ⟨-, -, -, -, -, -, e6, e7⟩ := idx_facts ⟨(i 0).val / 2000, hlt⟩
  refine ⟨⟨(i 0).val / 2000, hlt⟩, flush1_3 _, ?_⟩
  rw [mem_blk]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, hlt⟩ (1 : Fin 2) * 128 ≤ (i 1).val
      ∧ (i 1).val < win1_3.index ⟨(i 0).val / 2000, hlt⟩ (1 : Fin 2) * 128 + 128
    rw [e7]; omega

/-- After the grid the output array is `band` of the arrays the grid was entered with. -/
theorem final (c : Dev nD) :
    (dat1 V c).arrAt 3 cfg1.N = band (V c main_v28) (V c main_v29) (V c main_v30) :=
  (dat1 V c).arrAt_eq_of_cover 3 _ (fun t _ => flushed_eq V c t) cover

end Cert.KernelIdeal.BiasPrelu

end
-- ==== Proof.LibRowGather.lean ====
/-
  THE ROW GATHER READ AT AN INDEX. For a table `T : [N, C]` and an integer array of `E` row numbers, the array
  `T[idx] : [E, C]` is `stablehlo.gather` with offset_dims [1], collapsed_slice_dims [0], start_index_map [0],
  index_vector_dim 1 and slice_sizes [1, C] over the row numbers as `[E, 1]`. Its element `(e, c)` is the table's
  element `(row e, c)`, where `row e` is the `e`-th row number read as a signed integer and clamped into
  `[0, N − 1]` (a gather clamps every start index so that its slice fits). Generic in the sizes `N`, `E`, `C`, the
  width of the index words and the element type.
-/
import Idealize.ShloMosaic.PureOps.Ideal
import Idealize.ShloMosaic.Lib.ValueIdx

noncomputable section

open scoped BigOperators

namespace Cert.RowGather

open Idealize.ShloMosaic Idealize.ShloMosaic.ValueIdx

/-- The dimension numbers of `T[idx]` for `T : [N, C]` and the indices as `[E, 1]`: offset_dims [1],
    collapsed_slice_dims [0], start_index_map [0], index_vector_dim 1, slice_sizes [1, C]. -/
abbrev dims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index read signed and clamped into `[0, N − 1]`. -/
def row {N E w : Nat} (hN : 0 < N) (idx : IVec ⟨2, ![E, 1]⟩ w) (e : Fin E) : Fin N :=
  ⟨min (idx (ix2 e (0 : Fin 1))).toInt.toNat (N - 1), by omega⟩

/-- The row's number is the start index read signed, cut off at `N − 1`. -/
theorem row_val {N E w : Nat} (hN : 0 < N) (idx : IVec ⟨2, ![E, 1]⟩ w) (e : Fin E) :
    (row hN idx e).val = min (idx (ix2 e (0 : Fin 1))).toInt.toNat (N - 1) := rfl

/-- THE ROW GATHER READ AT `(e, c)`: `T[idx][e, c] = T[row e, c]`, the row the `e`-th start index names once read
    signed and clamped into `[0, N − 1]`, at the same column. -/
theorem gather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (dims N E C wf) x idx (ix2 e c) = x (ix2 (row hN idx e) c) := by
  unfold Host.gather
  congr 1
  funext a
  refine Fin.ext ?_
  match a with
  | ⟨0, _⟩ =>
    show (dims N E C wf).start (ix2 e c) idx 0 + (dims N E C wf).batchCoord (ix2 e c) 0
      + (dims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N E C wf).startIndexMap from List.mem_singleton.mpr rfl)]
    have hsi : (dims N E C wf).siIdx (ix2 e c) ⟨List.idxOf (0 : Fin 2) (dims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (dims N E C wf).start (ix2 e c) idx 1 + (dims N E C wf).batchCoord (ix2 e c) 1
      + (dims N E C wf).offCoord (ix2 e c) 1 = c.val
    rw [GatherDims.batchCoord_eq_zero _ _ _ List.not_mem_nil]
    have hstart : (dims N E C wf).start (ix2 e c) idx 1 = 0 := by
      unfold GatherDims.start
      rw [dif_neg (show (1 : Fin 2) ∉ (dims N E C wf).startIndexMap from by
        intro h; exact Nat.one_ne_zero (congrArg Fin.val (List.mem_singleton.mp h)))]
    rw [hstart]
    simp only [Nat.add_zero, Nat.zero_add]
    have hk : (1 : Fin 2) ∈ (dims N E C wf).sKept :=
      (GatherDims.mem_sKept _ _).mpr ⟨fun h => Nat.one_ne_zero (congrArg Fin.val (List.mem_singleton.mp h)), List.not_mem_nil⟩
    unfold GatherDims.offCoord
    rw [dif_pos hk]
    rfl

end Cert.RowGather

end
-- ==== Proof.LibRowScatterAdd.lean ====
/-
  THE ROW SCATTER-ADD READ AT AN INDEX. For an operand `x : [N, C]`, an integer array of `E` row numbers and updates
  `upd : [E, C]`, the arrays `jax.ops.segment_sum(upd, idx)` and `x.at[idx].add(upd)` are `stablehlo.scatter` with
  an `add` body, update_window_dims [1], inserted_window_dims [0], scatter_dims_to_operand_dims [0] and
  index_vector_dim 1 over the row numbers as `[E, 1]`. Update element `(e, c')` lands on operand element `(n, c)`
  exactly when `c' = c` and the `e`-th row number, read as a signed integer and NOT clamped, is `n`; an update whose
  row number is negative or at least `N` is dropped. So, over the extended reals, the result's element `(n, c)` is
  `x (n, c)` plus the sum of `upd (e, c)` over the edges `e` whose row number is `n`. Generic in the sizes `N`,
  `E`, `C` and the width of the index words.
-/
import Idealize.ShloMosaic.PureOps.Ideal
import Idealize.ShloMosaic.Lib.ValueIdx

noncomputable section

open scoped BigOperators

namespace Cert.RowScatterAdd

open Idealize.ShloMosaic Idealize.ShloMosaic.ValueIdx

/-- The dimension numbers of `jax.ops.segment_sum(upd, idx)` / `zeros.at[idx].add(upd)` for an operand `[N, C]`, the
    indices as `[E, 1]` and updates `[E, C]`: update_window_dims [1], inserted_window_dims [0],
    scatter_dims_to_operand_dims [0], index_vector_dim 1. -/
abbrev dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Edge `e` lands on row `n`: its index, read signed and NOT clamped, is `n`. -/
def hits {N E w : Nat} (idx : IVec ⟨2, ![E, 1]⟩ w) (e : Fin E) (n : Fin N) : Prop :=
  (idx (ix2 e (0 : Fin 1))).toInt = (n.val : Int)

instance {N E w : Nat} (idx : IVec ⟨2, ![E, 1]⟩ w) (e : Fin E) (n : Fin N) : Decidable (hits idx e n) := by
  unfold hits; infer_instance

section Coordinates
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update `(e, c')` starts at the `e`-th row number, read signed. -/
theorem start_row : (dims N E C wf).start (ix2 e c') idx 0 = (idx (ix2 e (0 : Fin 1))).toInt := by
  unfold ScatterDims.start
  rw [dif_pos (show (0 : Fin 2) ∈ (dims N E C wf).scatterDimsToOperandDims from List.mem_singleton.mpr rfl)]
  have hsi : (dims N E C wf).siIdx (ix2 e c') ⟨List.idxOf (0 : Fin 2) (dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter indices do not name that axis. -/
theorem start_col : (dims N E C wf).start (ix2 e c') idx 1 = 0 := by
  unfold ScatterDims.start
  rw [dif_neg (show (1 : Fin 2) ∉ (dims N E C wf).scatterDimsToOperandDims from fun h =>
    Nat.one_ne_zero (congrArg Fin.val (List.mem_singleton.mp h)))]

/-- The operand's axes that take a window coordinate are the column axis alone. -/
theorem mem_sKept (a : Fin 2) : a ∈ (dims N E C wf).sKept ↔ a ≠ 0 := by
  simp [ScatterDims.sKept, Shape.kept, List.mem_filter, List.mem_finRange]

/-- On the row axis, an inserted one, the window coordinate is `0`. -/
theorem window_row : (dims N E C wf).window (ix2 e c') 0 = 0 := by
  unfold ScatterDims.window
  rw [dif_neg (fun h => ((mem_sKept wf 0).mp h) rfl)]

/-- On the column axis the window coordinate of update `(e, c')` is its column `c'`. -/
theorem window_col : (dims N E C wf).window (ix2 e c') 1 = c'.val := by
  unfold ScatterDims.window
  rw [dif_pos ((mem_sKept wf 1).mpr (fun h => Nat.one_ne_zero (congrArg Fin.val h)))]
  rfl

end Coordinates

/-- WHERE AN UPDATE LANDS: update element `(e, c')` lands on operand element `(n, c)` exactly when the columns agree
    and the `e`-th row number, read signed and not clamped, is `n`. -/
theorem resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (dims N E C wf).resultIdx? (ix2 e c') idx = some (ix2 n c) ↔ c' = c ∧ hits idx e n := by
  have hs0 := start_row wf idx e c'
  have hs1 := start_col wf idx e c'
  have hw0 := window_row wf e c'
  have hw1 := window_col wf e c'
  have hn : n.val < N := n.isLt
  have hc' : c'.val < C := c'.isLt
  unfold hits
  unfold ScatterDims.resultIdx?
  split
  · rename_i h
    rw [Option.some.injEq]
    constructor
    · intro hf
      have h0 := congrArg Fin.val (congrFun hf 0)
      have h1 := congrArg Fin.val (congrFun hf 1)
      have hb0 := (h 0).1
      simp only [hs0, hw0] at h0 hb0
      simp only [hs1, hw1] at h1
      refine ⟨Fin.ext ?_, ?_⟩
      · change (((0 : Int) + (c'.val : Int)).toNat) = c.val at h1
        omega
      · change (((idx (ix2 e (0 : Fin 1))).toInt + ((0 : Nat) : Int)).toNat) = n.val at h0
        omega
    · rintro ⟨rfl, hhit⟩
      funext a
      refine Fin.ext ?_
      match a with
      | ⟨0, _⟩ =>
        show ((dims N E C wf).start (ix2 e c') idx 0 + ((dims N E C wf).window (ix2 e c') 0 : Nat)).toNat = n.val
        rw [hs0, hw0, hhit]; omega
      | ⟨1, _⟩ =>
        show ((dims N E C wf).start (ix2 e c') idx 1 + ((dims N E C wf).window (ix2 e c') 1 : Nat)).toNat = c'.val
        rw [hs1, hw1]; omega
  · rename_i h
    constructor
    · intro hf; exact absurd hf (by simp)
    · rintro ⟨rfl, hhit⟩
      exfalso; apply h
      intro a
      match a with
      | ⟨0, _⟩ =>
        show 0 ≤ (dims N E C wf).start (ix2 e c') idx 0 + ((dims N E C wf).window (ix2 e c') 0 : Nat) ∧
          (dims N E C wf).start (ix2 e c') idx 0 + ((dims N E C wf).window (ix2 e c') 0 : Nat) < (N : Int)
        rw [hs0, hw0, hhit]; omega
      | ⟨1, _⟩ =>
        show 0 ≤ (dims N E C wf).start (ix2 e c') idx 1 + ((dims N E C wf).window (ix2 e c') 1 : Nat) ∧
          (dims N E C wf).start (ix2 e c') idx 1 + ((dims N E C wf).window (ix2 e c') 1 : Nat) < (C : Int)
        rw [hs1, hw1]; omega

/-- THE ROW SCATTER-ADD READ AT `(n, c)`: the operand's element plus the sum, over the edges `e` whose row number
    (read signed, not clamped) is `n`, of the update's element `(e, c)`. -/
theorem scatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (dims N E C wf) x idx upd (ix2 n c)
      = x (ix2 n c) + ∑ e : Fin E, if hits idx e n then upd (ix2 e c) else 0 := by
  unfold Ideal.hostScatterAdd
  congr 1
  rw [Finset.sum_filter, sum_idx2]
  refine Finset.sum_congr rfl fun e _ => ?_
  have hcongr : ∀ c' : Fin C,
      (if (dims N E C wf).resultIdx? (ix2 e c') idx = some (ix2 n c) then upd (ix2 e c') else 0)
        = if c' = c then (if hits idx e n then upd (ix2 e c') else 0) else 0 := by
    intro c'
    by_cases h1 : c' = c
    · by_cases h2 : hits idx e n
      · rw [if_pos ((resultIdx?_eq_some_iff wf idx e c' n c).mpr ⟨h1, h2⟩), if_pos h1, if_pos h2]
      · rw [if_neg (fun h => h2 ((resultIdx?_eq_some_iff wf idx e c' n c).mp h).2), if_pos h1, if_neg h2]
    · rw [if_neg (fun h => h1 ((resultIdx?_eq_some_iff wf idx e c' n c).mp h).1), if_neg h1]
  rw [Finset.sum_congr rfl (fun c' _ => hcongr c')]
  rw [Finset.sum_ite_eq' Finset.univ c]
  simp only [Finset.mem_univ, if_true]

/-- The same read of the host's accumulating scatter as a program states it (`Host.scatterAdd`) at the ideal instance,
    where it is that exact sum whatever the float format. -/
theorem host_scatterAdd_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w)
    (upd : FVec Ideal ⟨2, ![E, C]⟩ φ) (n : Fin N) (c : Fin C) :
    Host.scatterAdd (F := Ideal) (dims N E C wf) x idx upd (ix2 n c)
      = x (ix2 n c) + ∑ e : Fin E, if hits idx e n then upd (ix2 e c) else 0 :=
  scatterAdd_apply wf x idx upd n c

end Cert.RowScatterAdd

end
-- ==== Proof.Layers.lean ====
/-
  The two-layer graph network entry by entry, as both programs compute it, on the extended reals.

  An edge `e` carries a weight `vals e`, a target row `row e` and a source row `col e`. The source index is first wrapped
  (a negative index counts from the end of the 50000 rows) and then, read signed, clamped into [0, 49999]; the target
  index is read signed and NOT clamped: an edge whose target is outside [0, 49999] contributes nothing. The aggregation
  of a table `T` of row values is, at row `n`,
      agg T n = 0 + ∑ e, [row e = n] · vals e · T (src e).
  The kernel aggregates the raw features and then applies the first weights; the reference applies the weights and then
  aggregates. With every feature, edge weight and first-layer weight a real number the two hidden activations agree
  (`hiddenK_eq_hiddenR`): a masked weighted sum of rows commutes with a linear map. From the hidden activations on, the two
  programs compute the same function (`outOf`).
-/
import Idealize.ShloMosaic.PureOps.Ideal
import Idealize.ShloMosaic.Lib.ValueIdx
import Idealize.ShloMosaic.Lib.Pipeline.Value
import proofs.«129848_j3762391351712_2_alg».proof.Proof.Spec
import proofs.«129848_j3762391351712_2_alg».proof.Proof.LibRowGather
import proofs.«129848_j3762391351712_2_alg».proof.Proof.LibRowScatterAdd

noncomputable section

open scoped BigOperators

namespace Cert.Gcn

open Idealize.ShloMosaic Idealize.ShloMosaic.ValueIdx

/-! ## Two broadcasts read at an index -/

/-- A vector `[E]` laid out as a column `[E, 1]` reads, at `(e, u)`, the vector at `e`. -/
theorem bcast_col_apply {α : Type} {E : ℕ} (h : (⟨1, ![E]⟩ : Shape).BroadcastsInDim ⟨2, ![E, 1]⟩ ![0])
    (x : (⟨1, ![E]⟩ : Shape).Idx → α) (e : Fin E) (u : Fin 1) :
    broadcastInDim ⟨2, ![E, 1]⟩ ![0] h x (ix2 e u) = x (ix1 e) := by
  refine broadcastInDim_apply ![0] h x (ix2 e u) (ix1 e) fun a => ?_
  match a with
  | ⟨0, _⟩ =>
    show e.val = if E = 1 then 0 else e.val
    split
    · have := e.isLt; omega
    · rfl

/-- A column `[E, 1]` broadcast along `C` columns reads, at `(e, c)`, the column at `(e, 0)`. -/
theorem bcast_cols_apply {α : Type} {E C : ℕ} (h : (⟨2, ![E, 1]⟩ : Shape).BroadcastsInDim ⟨2, ![E, C]⟩ ![0, 1])
    (y : (⟨2, ![E, 1]⟩ : Shape).Idx → α) (e : Fin E) (c : Fin C) :
    broadcastInDim ⟨2, ![E, C]⟩ ![0, 1] h y (ix2 e c) = y (ix2 e (0 : Fin 1)) := by
  refine broadcastInDim_apply ![0, 1] h y (ix2 e c) (ix2 e (0 : Fin 1)) fun a => ?_
  match a with
  | ⟨0, _⟩ =>
    show e.val = if E = 1 then 0 else e.val
    split
    · have := e.isLt; omega
    · rfl
  | ⟨1, _⟩ => rfl

/-! ## Edges -/

/-- A gather index word, wrapped: a negative index counts from the end of the 50000 rows. -/
def wrapAt (c : BitVec 32) : BitVec 32 := Scalar.select (IntOp.cmpi .slt c 0#32) (IntOp.addi c 50000#32) c

/-- The row edge `e` reads: its wrapped source index, read signed and clamped into [0, 49999]. -/
def src (col : (⟨1, ![800000]⟩ : Shape).Idx → BitVec 32) (e : Fin 800000) : Fin 50000 :=
  ⟨min (wrapAt (col (ix1 e))).toInt.toNat (50000 - 1), by omega⟩

/-- Edge `e` lands on row `n`: its target index, read signed, is `n`. -/
def lands (row : (⟨1, ![800000]⟩ : Shape).Idx → BitVec 32) (e : Fin 800000) (n : Fin 50000) : Prop :=
  (row (ix1 e)).toInt = (n.val : Int)

instance (row : (⟨1, ![800000]⟩ : Shape).Idx → BitVec 32) (e : Fin 800000) (n : Fin 50000) : Decidable (lands row e n) := by
  unfold lands; infer_instance

/-- The aggregation of a table of row values at row `n`: zero plus the weighted source values of the edges that land on `n`. -/
def aggAt (vals : (⟨1, ![800000]⟩ : Shape).Idx → Ideal .f32) (row col : (⟨1, ![800000]⟩ : Shape).Idx → BitVec 32)
    (T : Fin 50000 → Ideal .f32) (n : Fin 50000) : Ideal .f32 :=
  Ideal.ofBits .f32 0x00000000#32 + ∑ e : Fin 800000, if lands row e n then vals (ix1 e) * T (src col e) else 0

/-- THE AGGREGATION CHAIN READ AT AN ENTRY. The host's scatter-add of the scaled gathered rows into zeros — indices wrapped,
    the weights broadcast along the columns — is, at row `n` and column `c`, `aggAt` of that column of the table. -/
theorem agg_apply {C : ℕ}
    (wfS : ScatterDims.WF ⟨2, ![50000, C]⟩ ⟨2, ![800000, 1]⟩ ⟨2, ![800000, C]⟩ [1] [0] [0] 1)
    (wfG : GatherDims.WF ⟨2, ![50000, C]⟩ ⟨2, ![800000, 1]⟩ ⟨2, ![800000, C]⟩ [1] [0] [] [0] [] 1 ![1, C])
    (hZ : (⟨0, ![]⟩ : Shape).BroadcastsInDim ⟨2, ![50000, C]⟩ ![])
    (hR : (⟨1, ![800000]⟩ : Shape).BroadcastsInDim ⟨2, ![800000, 1]⟩ ![0])
    (hV : (⟨2, ![800000, 1]⟩ : Shape).BroadcastsInDim ⟨2, ![800000, C]⟩ ![0, 1])
    (h0 : (⟨0, ![]⟩ : Shape).BroadcastsInDim ⟨1, ![800000]⟩ ![])
    (vals : FVec Ideal ⟨1, ![800000]⟩ .f32) (row col : IVec ⟨1, ![800000]⟩ 32) (T : FVec Ideal ⟨2, ![50000, C]⟩ .f32)
    (n : Fin 50000) (c : Fin C) :
    Host.scatterAdd (F := Ideal) (Cert.RowScatterAdd.dims 50000 800000 C wfS)
      (broadcastInDim ⟨2, ![50000, C]⟩ ![] hZ (constant (F := Ideal) ⟨0, ![]⟩ .f32 0x00000000#32))
      (broadcastInDim ⟨2, ![800000, 1]⟩ ![0] hR row)
      (mulf (broadcastInDim ⟨2, ![800000, C]⟩ ![0, 1] hV (broadcastInDim ⟨2, ![800000, 1]⟩ ![0] hR vals))
        (Host.gather (Cert.RowGather.dims 50000 800000 C wfG) T
          (broadcastInDim ⟨2, ![800000, 1]⟩ ![0] hR
            (select (cmpi .slt col (broadcastInDim ⟨1, ![800000]⟩ ![] h0 (constantI ⟨0, ![]⟩ 32 0#32)))
              (addi col (broadcastInDim ⟨1, ![800000]⟩ ![] h0 (constantI ⟨0, ![]⟩ 32 50000#32))) col))))
      (ix2 n c)
    = aggAt vals row col (fun p => T (ix2 p c)) n := by
  rw [Cert.RowScatterAdd.host_scatterAdd_apply]
  unfold aggAt
  refine congrArg₂ (· + ·) rfl (Finset.sum_congr rfl fun e _ => ?_)
  have hl : Cert.RowScatterAdd.hits (broadcastInDim ⟨2, ![800000, 1]⟩ ![0] hR row) e n ↔ lands row e n := by
    unfold Cert.RowScatterAdd.hits lands
    rw [bcast_col_apply]
  refine (if_congr hl ?_ rfl)
  rw [mulf_apply, bcast_cols_apply, bcast_col_apply, Cert.RowGather.gather_apply (by omega : 0 < 50000)]
  refine congrArg (fun r => vals (ix1 e) * T (ix2 r c)) (Fin.ext ?_)
  rw [Cert.RowGather.row_val, bcast_col_apply]
  rfl

/-! ## The layers -/

section Layers

variable (x : (⟨2, ![50000, 128]⟩ : Shape).Idx → Ideal .f32) (vals : (⟨1, ![800000]⟩ : Shape).Idx → Ideal .f32)
  (mask : (⟨2, ![50000, 256]⟩ : Shape).Idx → Ideal .f32) (W1 : (⟨2, ![128, 256]⟩ : Shape).Idx → Ideal .f32)
  (b1 a1 : (⟨1, ![256]⟩ : Shape).Idx → Ideal .f32) (W2 : (⟨2, ![256, 128]⟩ : Shape).Idx → Ideal .f32)
  (b2 a2 : (⟨1, ![128]⟩ : Shape).Idx → Ideal .f32) (row col : (⟨1, ![800000]⟩ : Shape).Idx → BitVec 32)

/-- The hidden activation as the kernel computes it: aggregate the raw features, then the first weights. -/
def hiddenK (p : Fin 50000) (k : Fin 256) : Ideal .f32 :=
  prelu (a1 (ix1 k)) ((∑ f : Fin 128, aggAt vals row col (fun p' => x (ix2 p' f)) p * W1 (ix2 f k)) + b1 (ix1 k))
    * keepSel (mask (ix2 p k))

/-- The hidden activation as the reference computes it: the first weights, then aggregate. -/
def hiddenR (p : Fin 50000) (k : Fin 256) : Ideal .f32 :=
  prelu (a1 (ix1 k)) (aggAt vals row col (fun p' => ∑ f : Fin 128, x (ix2 p' f) * W1 (ix2 f k)) p + b1 (ix1 k))
    * keepDiv (mask (ix2 p k))

/-- The output entry (n, j) from the hidden activations: the second weights, the aggregation, the bias, PReLU. -/
def outOf (hidden : Fin 50000 → Fin 256 → Ideal .f32) (n : Fin 50000) (j : Fin 128) : Ideal .f32 :=
  prelu (a2 (ix1 j)) (aggAt vals row col (fun p => ∑ k : Fin 256, hidden p k * W2 (ix2 k j)) n + b2 (ix1 j))

end Layers

end Cert.Gcn

end
-- ==== Proof.KernelValue.lean ====
/-
  The kernel program's result, entry by entry.

  The result buffer ends at the second grid's output: PReLU of the aggregated first-grid output plus the bias. The first
  grid's output at (p, j) is the hidden activation of row `p` against column `j` of the second weights, the hidden
  activation built from the aggregated features. Reading the two aggregation stretches at an entry turns each into the
  masked weighted sum over the edges, so the result at (n, j) is `outOf` of the kernel's hidden activations.
-/
import proofs.«129848_j3762391351712_2_alg».proof.Proof.HostChain
import proofs.«129848_j3762391351712_2_alg».proof.Proof.Fused
import proofs.«129848_j3762391351712_2_alg».proof.Proof.BiasPrelu
import proofs.«129848_j3762391351712_2_alg».proof.Proof.Layers
import Idealize.ShloMosaic.Lib.ValueLayout

set_option maxRecDepth 16384

noncomputable section

open scoped BigOperators

namespace Cert.KernelIdeal.KernelValue

open Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.ValueIdx Cert.KernelIdeal.HostChain

variable (m : (ℓ : Loc nD τ sig) → Buf (Elt Ideal) ℓ) (ρ : Dev nD → PrngReg)

/-- The aggregation stretch at row `n`, column `c`: the masked weighted sum over the edges of that column of the table. -/
theorem agg_at (vals : FVec Ideal S800000 .f32) (row col : IVec S800000 32) (T : FVec Ideal S50000x128 .f32)
    (n : Fin 50000) (c : Fin 128) :
    agg vals row col T (ix2 n c) = Cert.Gcn.aggAt vals row col (fun p => T (ix2 p c)) n :=
  Cert.Gcn.agg_apply (C := 128) Facts₀.scatter_S50000x128_S800000x1_S800000x128_1_0_0_1_wf
    Facts₀.gather_S50000x128_S800000x1_S800000x128_1_0_n_n_0_1_1128_wf Facts₀.bcast_S_S50000x128 Facts₀.bcast_S800000_S800000x1_0
    Facts₀.bcast_S800000x1_S800000x128_0_1 Facts₀.bcast_S_S800000 vals row col T n c

/-- The first grid's output at (p, j): the kernel's hidden activations of row `p` against column `j` of the second weights. -/
theorem grid0_at (c : Dev nD) (p : Fin 50000) (j : Fin 128) :
    ((dat0 (V1 m ρ) c).arrAt 6 cfg0.N : S50000x128.Idx → Ideal .f32) (ix2 p j)
      = ∑ k : Fin 256, Cert.Gcn.hiddenK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) p k
          * (m ((c : Thread nD τ).loc main_arg6)) (ix2 k j) := by
  rw [Fused.final (V1 m ρ) c, entry0_v12, entry0_v13, entry0_v14, entry0_arg2, entry0_arg3, entry0_arg6]
  unfold Fused.fused Fused.hidden Cert.Gcn.hiddenK
  show ((∑ k : Fin 256, _) : Ideal .f32) = _
  refine Finset.sum_congr rfl fun k _ => ?_
  simp only [agg_at, shapeCast_a_1a_apply]

/-- THE RESULT at (n, j). -/
theorem result_apply (c : Dev nD) (n : Fin 50000) (j : Fin 128) :
    W4 m ρ c (Proc.devRef .tc main_v31) (ix2 n j)
      = Cert.Gcn.outOf (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10))
          (Cert.Gcn.hiddenK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10))) n j := by
  rw [W4_v31, BiasPrelu.final (V3 m ρ) c, entry1_v28, entry1_v29, entry1_v30]
  unfold BiasPrelu.band Cert.Gcn.outOf
  simp only [agg_at, shapeCast_a_1a_apply, grid0_at]

end Cert.KernelIdeal.KernelValue

end
-- ==== Proof.ReferenceValue.lean ====
/-
  The reference program's value read at an entry. Its last stage is, at row n and column j, PReLU of the second
  aggregation plus the bias; the second aggregation runs over the hidden activations times the second weights; a hidden
  activation is PReLU of the first aggregation (of the features times the first weights) plus the bias, times the
  dropout factor. Each stage is read at an entry from the stages before it; the two scatter-add chains are read by the
  aggregation lemma, the two contractions as finite sums over the contracted coordinate.
-/
import proofs.«129848_j3762391351712_2_alg».proof.Proof.Gen.ReferenceIdeal.Read
import proofs.«129848_j3762391351712_2_alg».proof.Proof.Layers
import Idealize.ShloMosaic.Lib.ValueLayout
import Idealize.ShloMosaic.Lib.KernelVsHost
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S800000, .f32⟩ : BufTy).Contents (Elt Ideal))
  (x2 : (⟨S50000x256, .f32⟩ : BufTy).Contents (Elt Ideal)) (x3 : (⟨S128x256, .f32⟩ : BufTy).Contents (Elt Ideal))
  (x4 x5 : (⟨S256, .f32⟩ : BufTy).Contents (Elt Ideal)) (x6 : (⟨S256x128, .f32⟩ : BufTy).Contents (Elt Ideal))
  (x7 x8 : (⟨S128, .f32⟩ : BufTy).Contents (Elt Ideal)) (x9 x10 : (⟨S800000, .i32⟩ : BufTy).Contents (Elt Ideal))

/-! ## The two aggregations -/

/-- The first aggregation at (p, k): the edges that land on row p, each weighting its source row of the features times
    the first weights, column k. -/
theorem agg1_apply (p : Fin 50000) (k : Fin 256) :
    val_main_v13 (F := Ideal) x0 x1 x3 x9 x10 (ix2 p k)
      = Cert.Gcn.aggAt x1 x9 x10 (fun p' => val_main_v0 (F := Ideal) x0 x3 (ix2 p' k)) p := by
  unfold val_main_v13 val_main_v11 val_main_v12 val_main_v10 val_main_v9 val_main_v8 val_main_v1 val_main_v7
    val_main_v6 val_main_v5 val_main_v4 val_main_v3 val_main_v2 val_main_c val_main_c_0 val_main_cst
  exact Cert.Gcn.agg_apply (C := 256) scatter_S50000x256_S800000x1_S800000x256_1_0_0_1_wf
    gather_S50000x256_S800000x1_S800000x256_1_0_n_n_0_1_1256_wf bcast_S_S50000x256 bcast_S800000_S800000x1_0
    bcast_S800000x1_S800000x256_0_1 bcast_S_S800000 x1 x9 x10 (val_main_v0 (F := Ideal) x0 x3) p k

/-- The second aggregation at (n, j): the edges that land on row n, each weighting its source row of the projected
    hidden activations, column j. -/
theorem agg2_apply (n : Fin 50000) (j : Fin 128) :
    val_main_v42 (F := Ideal) x0 x1 x2 x3 x4 x5 x6 x9 x10 (ix2 n j)
      = Cert.Gcn.aggAt x1 x9 x10 (fun p => val_main_v29 (F := Ideal) x0 x1 x2 x3 x4 x5 x6 x9 x10 (ix2 p j)) n := by
  unfold val_main_v42 val_main_v40 val_main_v41 val_main_v39 val_main_v38 val_main_v30 val_main_v37 val_main_v36
    val_main_v35 val_main_v34 val_main_v33 val_main_v32 val_main_v31 val_main_c_4 val_main_c_5 val_main_cst_6
  exact Cert.Gcn.agg_apply (C := 128) scatter_S50000x128_S800000x1_S800000x128_1_0_0_1_wf
    gather_S50000x128_S800000x1_S800000x128_1_0_n_n_0_1_1128_wf bcast_S_S50000x128 bcast_S800000_S800000x1_0
    bcast_S800000x1_S800000x128_0_1 bcast_S_S800000 x1 x9 x10
    (val_main_v29 (F := Ideal) x0 x1 x2 x3 x4 x5 x6 x9 x10) n j

/-! ## The printed stages' operand indices, by coordinates -/

theorem lidx_v0 (p : Fin 50000) (k : Fin 256) (f : Fin 128) : lidx_main_v0 (ix2 p k) f = ix2 p f :=
  funext fun a => Fin.ext (by match a with | ⟨0, _⟩ => rfl | ⟨1, _⟩ => rfl)

theorem ridx_v0 (p : Fin 50000) (k : Fin 256) (f : Fin 128) : ridx_main_v0 (ix2 p k) f = ix2 f k :=
  funext fun a => Fin.ext (by match a with | ⟨0, _⟩ => rfl | ⟨1, _⟩ => rfl)

theorem lidx_v29 (p : Fin 50000) (j : Fin 128) (k : Fin 256) : lidx_main_v29 (ix2 p j) k = ix2 p k :=
  funext fun a => Fin.ext (by match a with | ⟨0, _⟩ => rfl | ⟨1, _⟩ => rfl)

theorem ridx_v29 (p : Fin 50000) (j : Fin 128) (k : Fin 256) : ridx_main_v29 (ix2 p j) k = ix2 k j :=
  funext fun a => Fin.ext (by match a with | ⟨0, _⟩ => rfl | ⟨1, _⟩ => rfl)

theorem idx_b1 (p : Fin 50000) (k : Fin 256) : idx_main_v14 (idx_main_v15 (ix2 p k)) = ix1 k :=
  funext fun a => Fin.ext (by match a with | ⟨0, _⟩ => rfl)

theorem idx_a1 (p : Fin 50000) (k : Fin 256) : idx_main_v19 (idx_main_v20 (ix2 p k)) = ix1 k :=
  funext fun a => Fin.ext (by match a with | ⟨0, _⟩ => rfl)

theorem idx_b2 (n : Fin 50000) (j : Fin 128) : idx_main_v43 (idx_main_v44 (ix2 n j)) = ix1 j :=
  funext fun a => Fin.ext (by match a with | ⟨0, _⟩ => rfl)

theorem idx_a2 (n : Fin 50000) (j : Fin 128) : idx_main_v48 (idx_main_v49 (ix2 n j)) = ix1 j :=
  funext fun a => Fin.ext (by match a with | ⟨0, _⟩ => rfl)

/-! ## The first layer -/

/-- The features times the first weights at (p, k): the sum over the 128 features. -/
theorem v0_apply (p : Fin 50000) (k : Fin 256) :
    val_main_v0 (F := Ideal) x0 x3 (ix2 p k) = ∑ f : Fin 128, x0 (ix2 p f) * x3 (ix2 f k) := by
  rw [val_main_v0_apply]
  refine Finset.sum_congr rfl fun f _ => ?_
  rw [lidx_v0, ridx_v0]

/-- The first layer before its activation at (p, k): the first aggregation plus the bias. -/
theorem v16_apply (p : Fin 50000) (k : Fin 256) :
    val_main_v16 (F := Ideal) x0 x1 x3 x4 x9 x10 (ix2 p k)
      = Cert.Gcn.aggAt x1 x9 x10 (fun p' => ∑ f : Fin 128, x0 (ix2 p' f) * x3 (ix2 f k)) p + x4 (ix1 k) := by
  rw [val_main_v16_apply, agg1_apply, val_main_v15_apply, val_main_v14_apply, idx_b1]
  have e : (fun p' => val_main_v0 (F := Ideal) x0 x3 (ix2 p' k))
      = fun p' => ∑ f : Fin 128, x0 (ix2 p' f) * x3 (ix2 f k) := funext fun p' => v0_apply x0 x3 p' k
  rw [e]
  rfl

/-- The first activation at (p, k): PReLU, with the slope of column k, of the stage before it. -/
theorem v22_apply (p : Fin 50000) (k : Fin 256) :
    val_main_v22 (F := Ideal) x0 x1 x3 x4 x5 x9 x10 (ix2 p k)
      = Cert.Gcn.prelu (x5 (ix1 k)) (val_main_v16 (F := Ideal) x0 x1 x3 x4 x9 x10 (ix2 p k)) := by
  rw [val_main_v22_apply, val_main_v18_apply, val_main_v21_apply, val_main_v20_apply, val_main_v19_apply, idx_a1,
    val_main_v17_apply, val_main_cst_1_apply]
  generalize val_main_v16 (F := Ideal) x0 x1 x3 x4 x9 x10 (ix2 p k) = y
  rfl

/-- The dropout factor at (p, k): the comparison's bit as a float, divided by one half. -/
theorem v27_apply (p : Fin 50000) (k : Fin 256) :
    val_main_v27 (F := Ideal) x2 (ix2 p k) = Cert.Gcn.keepDiv (x2 (ix2 p k)) := by
  rw [val_main_v27_apply, val_main_v25_apply, val_main_v24_apply, val_main_v23_apply, val_main_cst_2_apply,
    val_main_v26_apply, val_main_cst_3_apply]
  rfl

/-- The hidden activation at (p, k). -/
theorem hidden_apply (p : Fin 50000) (k : Fin 256) :
    val_main_v28 (F := Ideal) x0 x1 x2 x3 x4 x5 x9 x10 (ix2 p k) = Cert.Gcn.hiddenR x0 x1 x2 x3 x4 x5 x9 x10 p k := by
  rw [val_main_v28_apply, v22_apply, v16_apply, v27_apply]
  rfl

/-! ## The second layer -/

/-- The hidden activations times the second weights at (p, j): the sum over the 256 hidden columns. -/
theorem proj_apply (p : Fin 50000) (j : Fin 128) :
    val_main_v29 (F := Ideal) x0 x1 x2 x3 x4 x5 x6 x9 x10 (ix2 p j)
      = ∑ k : Fin 256, Cert.Gcn.hiddenR x0 x1 x2 x3 x4 x5 x9 x10 p k * x6 (ix2 k j) := by
  rw [val_main_v29_apply]
  refine Finset.sum_congr rfl fun k _ => ?_
  rw [lidx_v29, ridx_v29, hidden_apply]

/-- The second layer before its activation at (n, j): the second aggregation plus the bias. -/
theorem v45_apply (n : Fin 50000) (j : Fin 128) :
    val_main_v45 (F := Ideal) x0 x1 x2 x3 x4 x5 x6 x7 x9 x10 (ix2 n j)
      = Cert.Gcn.aggAt x1 x9 x10
          (fun p => ∑ k : Fin 256, Cert.Gcn.hiddenR x0 x1 x2 x3 x4 x5 x9 x10 p k * x6 (ix2 k j)) n + x7 (ix1 j) := by
  rw [val_main_v45_apply, agg2_apply, val_main_v44_apply, val_main_v43_apply, idx_b2]
  have e : (fun p => val_main_v29 (F := Ideal) x0 x1 x2 x3 x4 x5 x6 x9 x10 (ix2 p j))
      = fun p => ∑ k : Fin 256, Cert.Gcn.hiddenR x0 x1 x2 x3 x4 x5 x9 x10 p k * x6 (ix2 k j) :=
    funext fun p => proj_apply x0 x1 x2 x3 x4 x5 x6 x9 x10 p j
  rw [e]
  rfl

/-- THE REFERENCE'S VALUE AT (n, j): PReLU, with the slope of column j, of the second aggregation plus the bias, over the
    reference's hidden activations. -/
theorem ref_apply (n : Fin 50000) (j : Fin 128) :
    val_main_v51 (F := Ideal) x0 x1 x2 x3 x4 x5 x6 x7 x8 x9 x10 (ix2 n j)
      = Cert.Gcn.outOf x1 x6 x7 x8 x9 x10 (Cert.Gcn.hiddenR x0 x1 x2 x3 x4 x5 x9 x10) n j := by
  rw [val_main_v51_apply, val_main_v47_apply, val_main_v50_apply, val_main_v49_apply, val_main_v48_apply, idx_a2,
    val_main_v46_apply, val_main_cst_7_apply, v45_apply]
  rfl

end Cert.ReferenceIdeal.RefValue

end
-- ==== Proof.LibMaskedSumLinear.lean ====
/-
  A MASKED, WEIGHTED SUM OF ROWS COMMUTES WITH A LINEAR MAP. For finitely many rows `X e` (each a finite family of
  numbers), weights `v e`, a set of rows picked by `hit` and a column of coefficients `W`,

      ∑ f, (∑ e ∈ hit, v e · X e f) · W f = ∑ e ∈ hit, v e · (∑ f, X e f · W f).

  It is stated over the extended reals, with a leading `0 +` on each masked sum (the value a sum accumulated onto zero
  has), and needs every entry to be a real number: on the extended reals multiplication does not distribute over
  addition in general (`(⊤ + ⊥) · 1` against `⊤ · 1 + ⊥ · 1`). With real entries both sides are the images of the same
  real number, by distributivity, associativity and an exchange of the two finite sums.
-/
import Idealize.ShloMosaic.PureOps.Ideal

noncomputable section

open scoped BigOperators

namespace Cert.MaskedSum

/-- The image in the extended reals of a finite sum of real numbers is the sum of the images. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A choice between the image of a real number and zero is the image of the choice between that number and zero. -/
theorem ite_coe (p : Prop) [Decidable p] (a : ℝ) :
    (if p then (a : EReal) else 0) = ((if p then a else 0 : ℝ) : EReal) := by
  by_cases h : p
  · rw [if_pos h, if_pos h]
  · rw [if_neg h, if_neg h, EReal.coe_zero]

/-- The law over the real numbers: `∑ f, (∑ e ∈ hit, v e · X e f) · W f = ∑ e ∈ hit, v e · (∑ f, X e f · W f)`. -/
theorem real_sum_mul_eq_masked_sum {E K : Type} [Fintype E] [Fintype K] (hit : E → Prop) [DecidablePred hit]
    (v : E → ℝ) (X : E → K → ℝ) (W : K → ℝ) :
    ∑ f, (∑ e, if hit e then v e * X e f else 0) * W f = ∑ e, if hit e then v e * ∑ f, X e f * W f else 0 := by
  simp only [Finset.sum_mul, ite_mul, zero_mul]
  rw [Finset.sum_comm]
  refine Finset.sum_congr rfl fun e _ => ?_
  by_cases h : hit e
  · simp only [if_pos h]
    rw [Finset.mul_sum]
    exact Finset.sum_congr rfl fun f _ => mul_assoc _ _ _
  · simp only [if_neg h]
    exact Finset.sum_const_zero

/-- A MASKED, WEIGHTED SUM OF ROWS COMMUTES WITH A LINEAR MAP, over the extended reals, when every weight, row entry
    and coefficient is a real number: `∑ f, (0 + ∑ e ∈ hit, v e · X e f) · W f = 0 + ∑ e ∈ hit, v e · (∑ f, X e f · W f)`. -/
theorem sum_mul_eq_masked_sum {E K : Type} [Fintype E] [Fintype K] (hit : E → Prop) [DecidablePred hit]
    (v : E → EReal) (X : E → K → EReal) (W : K → EReal)
    (hv : ∀ e, ∃ r : ℝ, v e = (r : EReal)) (hX : ∀ e f, ∃ r : ℝ, X e f = (r : EReal)) (hW : ∀ f, ∃ r : ℝ, W f = (r : EReal)) :
    ∑ f, (0 + ∑ e, if hit e then v e * X e f else 0) * W f = 0 + ∑ e, if hit e then v e * ∑ f, X e f * W f else 0 := by
  choose v' hv using hv
  choose X' hX using hX
  choose W' hW using hW
  -- each side is the image of the corresponding real expression
  have hL : ∑ f, (0 + ∑ e, if hit e then v e * X e f else 0) * W f
      = ((∑ f, (∑ e, if hit e then v' e * X' e f else 0) * W' f : ℝ) : EReal) := by
    rw [coe_sum]
    refine Finset.sum_congr rfl fun f _ => ?_
    rw [zero_add, EReal.coe_mul, coe_sum, hW f]
    congr 1
    refine Finset.sum_congr rfl fun e _ => ?_
    rw [hv e, hX e f, ← EReal.coe_mul, ite_coe]
  have hR : 0 + ∑ e, (if hit e then v e * ∑ f, X e f * W f else 0)
      = ((∑ e, (if hit e then v' e * ∑ f, X' e f * W' f else 0) : ℝ) : EReal) := by
    rw [zero_add, coe_sum]
    refine Finset.sum_congr rfl fun e _ => ?_
    have hs : ∑ f, X e f * W f = ((∑ f, X' e f * W' f : ℝ) : EReal) := by
      rw [coe_sum]
      refine Finset.sum_congr rfl fun f _ => ?_
      rw [hX e f, hW f, EReal.coe_mul]
    rw [hs, hv e, ← EReal.coe_mul, ite_coe]
  rw [hL, hR, real_sum_mul_eq_masked_sum]

end Cert.MaskedSum

end
-- ==== Proof.LayersLaw.lean ====
/-
  The two orders of the first layer agree on real inputs.

  The kernel aggregates the raw features and multiplies the aggregate by the first weights; the reference multiplies
  first and aggregates the products. For a fixed row `p` and hidden column `k`,
      ∑ f, (0 + ∑ e, [e lands on p] · vals e · x(src e, f)) · W1(f, k)
        = 0 + ∑ e, [e lands on p] · vals e · (∑ f, x(src e, f) · W1(f, k)),
  a masked weighted sum of rows commuting with a linear map. On the extended reals this is distributivity, which holds
  because every feature, edge weight and weight is a real number. The two spellings of the dropout factor agree
  unconditionally, so the hidden activations of the two programs are equal.
-/
import proofs.«129848_j3762391351712_2_alg».proof.Proof.Layers
import proofs.«129848_j3762391351712_2_alg».proof.Proof.LibMaskedSumLinear

noncomputable section

open scoped BigOperators

namespace Cert.Gcn

open Idealize.ShloMosaic Idealize.ShloMosaic.ValueIdx

/-- With real features, edge weights and first-layer weights, the kernel's hidden activation (aggregate, then the
    weights) is the reference's (the weights, then aggregate). -/
theorem hiddenK_eq_hiddenR (x : (⟨2, ![50000, 128]⟩ : Shape).Idx → Ideal .f32) (vals : (⟨1, ![800000]⟩ : Shape).Idx → Ideal .f32)
    (mask : (⟨2, ![50000, 256]⟩ : Shape).Idx → Ideal .f32) (W1 : (⟨2, ![128, 256]⟩ : Shape).Idx → Ideal .f32)
    (b1 a1 : (⟨1, ![256]⟩ : Shape).Idx → Ideal .f32) (row col : (⟨1, ![800000]⟩ : Shape).Idx → BitVec 32)
    (hx : ∀ i, ∃ r : ℝ, x i = (r : EReal)) (hv : ∀ i, ∃ r : ℝ, vals i = (r : EReal)) (hW : ∀ i, ∃ r : ℝ, W1 i = (r : EReal))
    (p : Fin 50000) (k : Fin 256) :
    hiddenK x vals mask W1 b1 a1 row col p k = hiddenR x vals mask W1 b1 a1 row col p k := by
  unfold hiddenK hiddenR
  rw [keepDiv_eq_keepSel]
  refine congrArg (fun z => prelu (a1 (ix1 k)) (z + b1 (ix1 k)) * keepSel (mask (ix2 p k))) ?_
  unfold aggAt
  rw [ofBits_zero]
  exact Cert.MaskedSum.sum_mul_eq_masked_sum (fun e => lands row e p) (fun e => vals (ix1 e))
    (fun e f => x (ix2 (src col e) f)) (fun f => W1 (ix2 f k)) (fun e => hv _) (fun e f => hx _) (fun f => hW _)

end Cert.Gcn

end
-- ==== Proof.FiniteInputs.lean ====
/-
  Finiteness read out of the precondition. The precondition is a conjunction, one conjunct per float input, each
  saying that every entry of that input has absolute value below plus infinity. Over the extended reals an entry x with
  max x (-x) < ⊤ is neither ⊤ nor ⊥, so it is (the image of) a real number. Three of the conjuncts are read
  out here: those of the first, the second and the fourth input.
-/
import proofs.«129848_j3762391351712_2_alg».proof.Pre_finite_inputs
import proofs.«129848_j3762391351712_2_alg».proof.Proof.Gen.Pre_finite_inputs
import Idealize.ShloMosaic.Lib.ReduceAll
import Idealize.ShloMosaic.Lib.ValueIdx
import Idealize.ShloMosaic.PureOps.Ideal

namespace Cert.FiniteInputs

open Idealize.ShloMosaic Cert.Pre_finite_inputs

/-- The rank-0 shape has exactly one index. -/
instance : Subsingleton S_.Idx := ⟨fun a b => funext fun d => d.elim0⟩

/-- An extended real whose absolute value max x (-x) compares below the pattern of plus infinity is a real number:
    the pattern denotes ⊤, and max x (-x) < ⊤ excludes both x = ⊤ and x = ⊥ (as -⊥ = ⊤). -/
theorem real_of_abs_lt_inf (x : Ideal .f32)
    (h : FloatOps.cmpf .olt (FloatOps.hostAbsf x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  change Ideal.cmp .olt (max (x : EReal) (-(x : EReal))) ⊤ = 1#1 at h
  unfold Ideal.cmp at h
  have hlt : max (x : EReal) (-(x : EReal)) < ⊤ := by
    by_contra hn
    simp [hn] at h
  rw [max_lt_iff] at hlt
  have h1 : (x : EReal) ≠ ⊤ := ne_of_lt hlt.1
  have h2 : (x : EReal) ≠ ⊥ := by
    intro hh
    rw [hh] at hlt
    simp at hlt
  exact ⟨EReal.toReal x, (EReal.coe_toReal h1 h2).symm⟩

/-- One conjunct of the precondition, read back: if the conjunction over all entries of "|a i| < +∞" came out true,
    every entry of a is a real number. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant (F := Ideal) S_ .f32 0x7F800000#32)))
          init hr hu ValueIdx.ix0 = 1#1) :
    ∀ i, ∃ r : ℝ, a i = (r : EReal) := by
  intro i
  have hi := Host.reduce_andi_all _ init hr hu ValueIdx.ix0 e i
  exact real_of_abs_lt_inf (a i) hi

/-- A conjunction of two rank-0 truth values that is true has both sides true. -/
theorem andi_ix0 (x y : IVec S_ 1) (h : andi x y ValueIdx.ix0 = 1#1) :
    x ValueIdx.ix0 = 1#1 ∧ y ValueIdx.ix0 = 1#1 :=
  IntOp.andi_eq_one.1 h

open Cert.Pre_finite_inputs.Gen in
/-- From the precondition: the first, second and fourth inputs hold real numbers at every index. -/
theorem of_pre (a0 : FVec Ideal S50000x128 .f32) (a1 : FVec Ideal S800000 .f32) (a2 : FVec Ideal S50000x256 .f32)
    (a3 : FVec Ideal S128x256 .f32) (a4 a5 : FVec Ideal S256 .f32) (a6 : FVec Ideal S256x128 .f32) (a7 a8 : FVec Ideal S128 .f32)
    (a9 a10 : IVec S800000 32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a3 i = (r : EReal)) := by
  have h0 := congrFun h ValueIdx.ix0
  unfold fn fn_part1 fn_part2 at h0
  dsimp only at h0
  -- the chain of conjunctions, peeled from the outside in
  obtain ⟨h38, -⟩ := andi_ix0 _ _ h0
  obtain ⟨h33, -⟩ := andi_ix0 _ _ h38
  obtain ⟨h28, -⟩ := andi_ix0 _ _ h33
  obtain ⟨h23, -⟩ := andi_ix0 _ _ h28
  obtain ⟨h18, -⟩ := andi_ix0 _ _ h23
  obtain ⟨h13, h17⟩ := andi_ix0 _ _ h18
  obtain ⟨h8, -⟩ := andi_ix0 _ _ h13
  obtain ⟨h3, h7⟩ := andi_ix0 _ _ h8
  exact ⟨all_real a0 _ _ _ _ h3, all_real a1 _ _ _ _ h7, all_real a3 _ _ _ _ h17⟩

end Cert.FiniteInputs
-- ==== Proof.lean ====
/-
  The certificate of a two-layer graph network kernel against its reference, on the extended reals.

  Both programs compute, for 50000 nodes and 800000 weighted edges, PReLU(A·(h·W2) + b2) with the hidden activations
  h = dropout(PReLU(pre1)), where A is the edge aggregation (gather the source rows, scale by the edge weights, add at the
  target rows). They differ in the first layer only: the reference forms pre1 = A·(x·W1) + b1, the kernel (A·x)·W1 + b1,
  and in how the dropout factor is spelt (a select of 2 or 0 against a comparison's bit divided by 1/2). Under the
  precondition every feature, edge weight and first-layer weight is a real number, so the two orders agree
  (distributivity on the extended reals needs finiteness); the two spellings of the dropout factor agree outright.

  The kernel program runs two grids of 25 row bands between stretches of host operations: its frame (it terminates,
  faults nowhere, keeps its arguments) is the generated one, and its run with the result named is `KernelRun`; `Fused`
  and `BiasPrelu` read the two grids' output arrays as whole-array functions, `HostChain` the host stretches, and
  `KernelValue` the result entry by entry. The reference's run is generated; `ReferenceValue` reads it entry by entry.
  `Layers` states the common entry function and `LayersLaw` the first layer's two orders.
-/
import proofs.«129848_j3762391351712_2_alg».proof.Defs
import proofs.«129848_j3762391351712_2_alg».proof.Proof.Gen.Kernel
import proofs.«129848_j3762391351712_2_alg».proof.Proof.Gen.Kernel.Frame
import proofs.«129848_j3762391351712_2_alg».proof.Proof.Gen.KernelIdeal
import proofs.«129848_j3762391351712_2_alg».proof.Proof.Gen.KernelIdeal.Frame
import proofs.«129848_j3762391351712_2_alg».proof.Proof.Gen.ReferenceIdeal
import proofs.«129848_j3762391351712_2_alg».proof.Proof.Gen.Pre_finite_inputs
import proofs.«129848_j3762391351712_2_alg».proof.Proof.Gen.ReferenceIdeal.Run
import proofs.«129848_j3762391351712_2_alg».proof.Proof.Gen.ReferenceIdeal.Read
import proofs.«129848_j3762391351712_2_alg».proof.Proof.KernelRun
import proofs.«129848_j3762391351712_2_alg».proof.Proof.KernelValue
import proofs.«129848_j3762391351712_2_alg».proof.Proof.ReferenceValue
import proofs.«129848_j3762391351712_2_alg».proof.Proof.LayersLaw
import proofs.«129848_j3762391351712_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and keeps its arguments: the generated frame. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: entry (n, j) of each is
    `outOf` of its hidden activations, and the hidden activations agree because the features, the edge weights and the
    first weights are real numbers. -/
theorem algebraic : Cert.algebraic_KernelIdeal_ReferenceIdeal := by
  intro m ρ m' ρ' hpre hagree
  refine ⟨fun c => Cert.KernelIdeal.Gen.W4 m ρ c (Proc.devRef .tc Cert.KernelIdeal.main_v31),
    Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  obtain ⟨hx, hv, hW⟩ := Cert.FiniteInputs.of_pre _ _ _ _ _ _ _ _ _ _ _ (hpre c)
  rw [Cert.ReferenceIdeal.Read.val_main_v51_eq, h0, h1, h2, h3, h4, h5, h6, h7, h8, h9, h10]
  funext i
  obtain ⟨n, j, rfl⟩ : ∃ (n : Fin 50000) (j : Fin 128), i = ix2 n j := ⟨i 0, i 1, eq_ix2 i⟩
  refine (Cert.ReferenceIdeal.RefValue.ref_apply _ _ _ _ _ _ _ _ _ _ _ n j).trans ?_
  refine Eq.trans ?_ (Cert.KernelIdeal.KernelValue.result_apply m ρ c n j).symm
  refine congrArg (fun h => Cert.Gcn.outOf (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) h n j) ?_
  funext p k
  exact (Cert.Gcn.hiddenK_eq_hiddenR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) hx hv hW p k).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
